-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩
abbrev S20000x128 : Shape := ⟨2, ![20000, 128]⟩

abbrev nBuf : Space → Nat
  | .hbm => 7
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .bf16⟩
  | .hbm, ⟨5, _⟩ => ⟨S1x128, .f32⟩
  | .hbm, ⟨6, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .bf16⟩
  | .local _ .vmem, ⟨5, _⟩ => ⟨S1x128, .f32⟩
  | .local _ .vmem, ⟨6, _⟩ => ⟨S20000x128, .f32⟩
  | .local _ .vmem, ⟨7, _⟩ => ⟨S20000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S20000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  bitsLt_bf16_f32 : FTy.bits .bf16 < FTy.bits .f32
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S10000x128_0_0 : ∀ a, (![0, 0] : Fin 2 → Nat) a + S10000x128.size a ≤ S10000x128.size a
  h_S10000x128 : 0 < S10000x128.numel
  broadcasts_S1x128_S10000x128 : S1x128.Broadcasts S10000x128
  inb_S20000x128_S10000x128_0_0 : ∀ a, (![0, 0] : Fin 2 → Nat) a + S10000x128.size a ≤ S20000x128.size a
  inb_S20000x128_S10000x128_10000_0 : ∀ a, (![10000, 0] : Fin 2 → Nat) a + S10000x128.size a ≤ S20000x128.size a
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S20000x128.size a ≤ S100000x128.size a
  hwx0_4 : ∀ i : grid0.Coords, EltTy.bits .f32 = 32 ∨ (Rect.block (s := S100000x128) S20000x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S20000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S100000x128, .f32⟩
  | .hbm, ⟨5, _⟩ => ⟨S1x128, .f32⟩
  | .hbm, ⟨6, _⟩ => ⟨S100000x128, .f32⟩
  | .hbm, ⟨7, _⟩ => ⟨S100000x128, .f32⟩
  | .hbm, ⟨8, _⟩ => ⟨S_, .f32⟩
  | .hbm, ⟨9, _⟩ => ⟨S100000x128, .f32⟩
  | .hbm, ⟨10, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BitsEntry.lean ====
/-
  The word-level kernel up to its one pipelined region. @main first transposes the weight matrix, changes its
  format, and reshapes the bias vector to a one-row matrix; the region then streams the activation matrix in
  row tiles. Here: the arrays as the region finds them, the fact that none of the three host operations writes
  an argument array, the block of each window's array at a grid point, and that every input window's staging
  buffer holds exactly that block when the body runs (whether or not the point fetched it: a window whose
  block index does not move is fetched once and left in place by the body).
-/
import proofs.«135595_g70342974374496_cont_9to1c4b_293_24_alg».proof.Proof.Gen.Kernel.Launch
import proofs.«135595_g70342974374496_cont_9to1c4b_293_24_alg».proof.Proof.Gen.Kernel.Skeleton
import proofs.«135595_g70342974374496_cont_9to1c4b_293_24_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the three host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The activation matrix is written by no host operation. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- Nor is the weight matrix (its transpose is a new array). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- Nor the bias vector (its reshape is a new array). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The even row tile of the activation matrix: its staging buffer holds the tile at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The odd row tile of the same matrix, likewise. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The transposed weights: one block, fetched at the first point and kept. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The bias row: one block, fetched at the first point and kept. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Region

end
-- ==== Proof.BitsBody.lean ====
/-
  The kernel body on one grid point. It loads the transposed weights, the bias row and the two row tiles, and
  stores, into the lower and the upper half of a two-tile output buffer, the rectified affine image of the even
  and of the odd tile. The two stores are disjoint and together fill the buffer, so what the buffer holds after
  the body is determined by the four loaded blocks alone, whatever it held before.
-/
import proofs.«135595_g70342974374496_cont_9to1c4b_293_24_alg».proof.Proof.BitsEntry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A whole row tile. -/
abbrev rTile : Rect S10000x128 := Rect.unit (s := S10000x128) ![0, 0] S10000x128.size inb_S10000x128_S10000x128_0_0
/-- The whole weight block. -/
abbrev rWt : Rect S128x128 := Rect.unit (s := S128x128) ![0, 0] S128x128.size inb_S128x128_S128x128_0_0
/-- The whole bias row. -/
abbrev rBias : Rect S1x128 := Rect.unit (s := S1x128) ![0, 0] S1x128.size inb_S1x128_S1x128_0_0
/-- The lower half of the output buffer: rows 0 to 9999. -/
abbrev rLo : Rect S20000x128 := Rect.unit (s := S20000x128) ![0, 0] S10000x128.size inb_S20000x128_S10000x128_0_0
/-- The upper half: rows 10000 to 19999. -/
abbrev rHi : Rect S20000x128 := Rect.unit (s := S20000x128) ![10000, 0] S10000x128.size inb_S20000x128_S10000x128_10000_0

/-! ## What the body leaves in the output buffer -/

/-- The output buffer after the body, from the even tile `x0`, the odd tile `x1`, the weights `x2` and the
    bias row `x3`: the body's two stores, the later one first. -/
def outBuf (x0 x1 : Vec F S10000x128 .f32) (x2 : Vec F S128x128 .bf16) (x3 : Vec F S1x128 .f32) : Vec F S20000x128 .f32 :=
  View.canon [⟨rHi, k0_pay4 (View.ld x2 rWt) (View.ld x3 rBias) (View.ld x1 rTile)⟩,
    ⟨rLo, k0_pay3 (View.ld x2 rWt) (View.ld x3 rBias) (View.ld x0 rTile)⟩]

/-- The two half-buffer stores tile the buffer, so they cover it. -/
theorem cover_out (p1 p0 : Vec F S10000x128 .f32) (y : S20000x128.Idx) :
    ∃ pc ∈ ([⟨rHi, p1⟩, ⟨rLo, p0⟩] : List (View.Piece (Elt F) S20000x128 .f32)), y ∈ pc.1.set :=
  View.cover_of_tiled [⟨rHi, p1⟩, ⟨rLo, p0⟩] S10000x128.size (by rfl) y

/-! ## The body's triple -/

set_option maxHeartbeats 1000000 in
/-- The body on whole staging buffers, the four inputs' at known contents and the output's at anything, runs
    to the end leaving the inputs' as they were and the output's at `outBuf` of the inputs'. -/
theorem sound_kernel (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S20000x128 .f32) (harg5 : arg5.IsWhole)
    (x0 x1 : Vec F S10000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBuf x0 x1 x2 x3)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

end Cert.Kernel.Region

end
-- ==== Proof.BitsData.lean ====
/-
  The pipeline's proof data and the obligation of its body. The even-tile and the odd-tile window read ONE
  array, the activation matrix: the array's ownership is dealt in two halves, one to each window, which is
  enough because neither window is ever written back. After the body at a grid point each input buffer still
  holds its block and the output buffer holds the two rectified affine images, lower half and upper half.
-/
import proofs.«135595_g70342974374496_cont_9to1c4b_293_24_alg».proof.Proof.BitsBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body each input's buffer at its block and the
    output's at `outBuf` of the four input blocks; the invariant the core's scoped buffers that are no staging
    buffer; the activation matrix held half by the even-tile window and half by the odd-tile window, every other
    array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBuf (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBuf (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.BitsRun.lean ====
/-
  The launch of the region and the frame. Five windows stand on four arrays: the activation matrix is held
  whole when the region is entered and is dealt, half and half, to the even-tile and the odd-tile window; the
  transposed weights, the bias row and the result are each one window's. From the body obligation the library's
  launch theorem for windows that share an array gives the run: @main terminates without fault, every window's
  array ends at what the write-backs made of it, every other array as the region found it. The argument arrays
  are an input window's array (never written back) and two arrays no window stands on: all three end unchanged.
-/
import proofs.«135595_g70342974374496_cont_9to1c4b_293_24_alg».proof.Proof.BitsData

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' ownership, window by window -/

/-- The proof data's arrays: the activation matrix twice, at the two halves of the full share, and the three
    other arrays whole. -/
theorem arrays_eq (c : Dev nD) (Fs : (w : Fin cfg0.W) → Buf (Elt F) ((cfg0.win w).arr.view.loc (c.tc : Thread nD τ))) :
    ((dats m 0 c).arrays Fs : sProp 𝕄) = iprop(
      (((c : Thread nD τ).loc main_arg0) ↦{fullShare.left} Fs 0) ∗ (((c : Thread nD τ).loc main_arg0) ↦{fullShare.right} Fs 1)
      ∗ (((c : Thread nD τ).loc main_v1) ↦{fullShare} Fs 2) ∗ (((c : Thread nD τ).loc main_v2) ↦{fullShare} Fs 3)
      ∗ (((c : Thread nD τ).loc main_v3) ↦{fullShare} Fs 4)) := by
  unfold Dat.arrays
  rw [bigSep_W0, (arr_whole0 0).set_eq_univ, (arr_whole0 2).set_eq_univ, (arr_whole0 3).set_eq_univ, (arr_whole0 4).set_eq_univ]
  rfl

/-- The distinct buffers behind the windows' arrays, one by one: four arrays under five windows. -/
theorem arrBufs_eq (c : Dev nD) (W : (b : Ref sig .tc) → Buf (Elt F) ((c : Thread nD τ).loc b)) :
    (Pipeline.arrBufs spec0 c W : sProp 𝕄) = iprop(
      (((c : Thread nD τ).loc main_arg0) ↦{fullShare} W main_arg0) ∗ (((c : Thread nD τ).loc main_v1) ↦{fullShare} W main_v1)
      ∗ (((c : Thread nD τ).loc main_v2) ↦{fullShare} W main_v2) ∗ (((c : Thread nD τ).loc main_v3) ↦{fullShare} W main_v3)) := by
  unfold Pipeline.arrBufs
  exact bigSep_eq_bigSepL_of_eq [main_arg0, main_v1, main_v2, main_v3] (by decide) (by decide) _

/-- The invariant is the same at every point. -/
theorem Φ_eq (c : Dev nD) (t : Fin (cfg0.N + 1)) : (dats m 0 c).Φ t = Pipeline.scopedRest spec0 c := by
  dsimp only [dats]

/-- The four arrays held whole at the region's entry are the proof data's arrays there: the activation
    matrix's full share splits into its two halves. -/
theorem hsplit (c : Dev nD) :
    (Pipeline.arrBufs spec0 c (V m c) : sProp 𝕄) ⊢ (dats m 0 c).arrays ((dats m 0 c).arrAt · 0) := by
  rw [arrays_eq, arrBufs_eq]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-! ## The run -/

set_option backward.isDefEq.respectTransparency.types false in
/-- From any memory with every semaphore at zero: every weakly fair execution of @main terminates without
    fault, each window's array ends at what the write-backs made of it, and every other unscoped buffer as
    the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The argument arrays end as launched: the activation matrix is an input window's array, which no write-back
    touches; the weight matrix and the bias vector are no window's array; and none of the three is written by
    a host operation before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Region

end
-- ==== Proof.IdealEntry.lean ====
/-
  The idealized kernel up to its one pipelined region. @main first transposes the weight matrix, changes its
  format, and reshapes the bias vector to a one-row matrix; the region then streams the activation matrix in
  row tiles. Here: the arrays as the region finds them, the fact that none of the three host operations writes
  an argument array, the block of each window's array at a grid point, and that every input window's staging
  buffer holds exactly that block when the body runs (whether or not the point fetched it: a window whose
  block index does not move is fetched once and left in place by the body).
-/
import proofs.«135595_g70342974374496_cont_9to1c4b_293_24_alg».proof.Proof.Gen.KernelIdeal.Launch
import proofs.«135595_g70342974374496_cont_9to1c4b_293_24_alg».proof.Proof.Gen.KernelIdeal.Skeleton
import proofs.«135595_g70342974374496_cont_9to1c4b_293_24_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the three host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The activation matrix is written by no host operation. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- Nor is the weight matrix (its transpose is a new array). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- Nor the bias vector (its reshape is a new array). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The even row tile of the activation matrix: its staging buffer holds the tile at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The odd row tile of the same matrix, likewise. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The transposed weights: one block, fetched at the first point and kept. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The bias row: one block, fetched at the first point and kept. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Region

end
-- ==== Proof.IdealBody.lean ====
/-
  The kernel body on one grid point. It loads the transposed weights, the bias row and the two row tiles, and
  stores, into the lower and the upper half of a two-tile output buffer, the rectified affine image of the even
  and of the odd tile. The two stores are disjoint and together fill the buffer, so what the buffer holds after
  the body is determined by the four loaded blocks alone, whatever it held before.
-/
import proofs.«135595_g70342974374496_cont_9to1c4b_293_24_alg».proof.Proof.IdealEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A whole row tile. -/
abbrev rTile : Rect S10000x128 := Rect.unit (s := S10000x128) ![0, 0] S10000x128.size inb_S10000x128_S10000x128_0_0
/-- The whole weight block. -/
abbrev rWt : Rect S128x128 := Rect.unit (s := S128x128) ![0, 0] S128x128.size inb_S128x128_S128x128_0_0
/-- The whole bias row. -/
abbrev rBias : Rect S1x128 := Rect.unit (s := S1x128) ![0, 0] S1x128.size inb_S1x128_S1x128_0_0
/-- The lower half of the output buffer: rows 0 to 9999. -/
abbrev rLo : Rect S20000x128 := Rect.unit (s := S20000x128) ![0, 0] S10000x128.size inb_S20000x128_S10000x128_0_0
/-- The upper half: rows 10000 to 19999. -/
abbrev rHi : Rect S20000x128 := Rect.unit (s := S20000x128) ![10000, 0] S10000x128.size inb_S20000x128_S10000x128_10000_0

/-! ## What the body leaves in the output buffer -/

/-- The output buffer after the body, from the even tile `x0`, the odd tile `x1`, the weights `x2` and the
    bias row `x3`: the body's two stores, the later one first. -/
def outBuf (x0 x1 : Vec F S10000x128 .f32) (x2 : Vec F S128x128 .bf16) (x3 : Vec F S1x128 .f32) : Vec F S20000x128 .f32 :=
  View.canon [⟨rHi, k0_pay4 (View.ld x2 rWt) (View.ld x3 rBias) (View.ld x1 rTile)⟩,
    ⟨rLo, k0_pay3 (View.ld x2 rWt) (View.ld x3 rBias) (View.ld x0 rTile)⟩]

/-- The two half-buffer stores tile the buffer, so they cover it. -/
theorem cover_out (p1 p0 : Vec F S10000x128 .f32) (y : S20000x128.Idx) :
    ∃ pc ∈ ([⟨rHi, p1⟩, ⟨rLo, p0⟩] : List (View.Piece (Elt F) S20000x128 .f32)), y ∈ pc.1.set :=
  View.cover_of_tiled [⟨rHi, p1⟩, ⟨rLo, p0⟩] S10000x128.size (by rfl) y

/-! ## The body's triple -/

set_option maxHeartbeats 1000000 in
/-- The body on whole staging buffers, the four inputs' at known contents and the output's at anything, runs
    to the end leaving the inputs' as they were and the output's at `outBuf` of the inputs'. -/
theorem sound_kernel (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S20000x128 .f32) (harg5 : arg5.IsWhole)
    (x0 x1 : Vec F S10000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBuf x0 x1 x2 x3)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _ _)

end Cert.KernelIdeal.Region

end
-- ==== Proof.IdealData.lean ====
/-
  The pipeline's proof data and the obligation of its body. The even-tile and the odd-tile window read ONE
  array, the activation matrix: the array's ownership is dealt in two halves, one to each window, which is
  enough because neither window is ever written back. After the body at a grid point each input buffer still
  holds its block and the output buffer holds the two rectified affine images, lower half and upper half.
-/
import proofs.«135595_g70342974374496_cont_9to1c4b_293_24_alg».proof.Proof.IdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body each input's buffer at its block and the
    output's at `outBuf` of the four input blocks; the invariant the core's scoped buffers that are no staging
    buffer; the activation matrix held half by the even-tile window and half by the odd-tile window, every other
    array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBuf (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBuf (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.IdealRun.lean ====
/-
  The launch of the region and the frame. Five windows stand on four arrays: the activation matrix is held
  whole when the region is entered and is dealt, half and half, to the even-tile and the odd-tile window; the
  transposed weights, the bias row and the result are each one window's. From the body obligation the library's
  launch theorem for windows that share an array gives the run: @main terminates without fault, every window's
  array ends at what the write-backs made of it, every other array as the region found it. The argument arrays
  are an input window's array (never written back) and two arrays no window stands on: all three end unchanged.
-/
import proofs.«135595_g70342974374496_cont_9to1c4b_293_24_alg».proof.Proof.IdealData

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' ownership, window by window -/

/-- The proof data's arrays: the activation matrix twice, at the two halves of the full share, and the three
    other arrays whole. -/
theorem arrays_eq (c : Dev nD) (Fs : (w : Fin cfg0.W) → Buf (Elt F) ((cfg0.win w).arr.view.loc (c.tc : Thread nD τ))) :
    ((dats m 0 c).arrays Fs : sProp 𝕄) = iprop(
      (((c : Thread nD τ).loc main_arg0) ↦{fullShare.left} Fs 0) ∗ (((c : Thread nD τ).loc main_arg0) ↦{fullShare.right} Fs 1)
      ∗ (((c : Thread nD τ).loc main_v1) ↦{fullShare} Fs 2) ∗ (((c : Thread nD τ).loc main_v2) ↦{fullShare} Fs 3)
      ∗ (((c : Thread nD τ).loc main_v3) ↦{fullShare} Fs 4)) := by
  unfold Dat.arrays
  rw [bigSep_W0, (arr_whole0 0).set_eq_univ, (arr_whole0 2).set_eq_univ, (arr_whole0 3).set_eq_univ, (arr_whole0 4).set_eq_univ]
  rfl

/-- The distinct buffers behind the windows' arrays, one by one: four arrays under five windows. -/
theorem arrBufs_eq (c : Dev nD) (W : (b : Ref sig .tc) → Buf (Elt F) ((c : Thread nD τ).loc b)) :
    (Pipeline.arrBufs spec0 c W : sProp 𝕄) = iprop(
      (((c : Thread nD τ).loc main_arg0) ↦{fullShare} W main_arg0) ∗ (((c : Thread nD τ).loc main_v1) ↦{fullShare} W main_v1)
      ∗ (((c : Thread nD τ).loc main_v2) ↦{fullShare} W main_v2) ∗ (((c : Thread nD τ).loc main_v3) ↦{fullShare} W main_v3)) := by
  unfold Pipeline.arrBufs
  exact bigSep_eq_bigSepL_of_eq [main_arg0, main_v1, main_v2, main_v3] (by decide) (by decide) _

/-- The invariant is the same at every point. -/
theorem Φ_eq (c : Dev nD) (t : Fin (cfg0.N + 1)) : (dats m 0 c).Φ t = Pipeline.scopedRest spec0 c := by
  dsimp only [dats]

/-- The four arrays held whole at the region's entry are the proof data's arrays there: the activation
    matrix's full share splits into its two halves. -/
theorem hsplit (c : Dev nD) :
    (Pipeline.arrBufs spec0 c (V m c) : sProp 𝕄) ⊢ (dats m 0 c).arrays ((dats m 0 c).arrAt · 0) := by
  rw [arrays_eq, arrBufs_eq]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-! ## The run -/

set_option backward.isDefEq.respectTransparency.types false in
/-- From any memory with every semaphore at zero: every weakly fair execution of @main terminates without
    fault, each window's array ends at what the write-backs made of it, and every other unscoped buffer as
    the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The argument arrays end as launched: the activation matrix is an input window's array, which no write-back
    touches; the weight matrix and the bias vector are no window's array; and none of the three is written by
    a host operation before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Region

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«135595_g70342974374496_cont_9to1c4b_293_24_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.IdealTile.lean ====
/-
  One grid point of the idealized kernel, as values. A row tile X of 10000 rows goes through the layer: at row p
  and column q the body's stored value is max (Σ_k X[p, k] · Wt[k, q] + B[0, q], 0), where Wt is the block of
  transposed weights and B the one-row bias block (the change of float format before the product is the identity
  on the extended reals, and both shape casts are to the same shape). The output buffer's lower half is the even
  tile's image and its upper half the odd tile's.
-/
import proofs.«135595_g70342974374496_cont_9to1c4b_293_24_alg».proof.Proof.IdealBody
import proofs.«135595_g70342974374496_cont_9to1c4b_293_24_alg».proof.Proof.LibDense
import Idealize.ShloMosaic.Lib.ValueLayout

set_option maxRecDepth 16384

noncomputable section

namespace Cert.KernelIdeal.Region

open Cert.KernelIdeal Cert.KernelIdeal.Gen
open Idealize.ShloMosaic Idealize.ShloMosaic.ValueIdx Cert.RowOps Cert.Dense

/-- The body's product contracts the tile's second axis with the weight block's first. -/
theorem plainK : IsPlain dot_S10000x128_S128x128_S10000x128_1_0_0_1_n_n := ⟨rfl, rfl, rfl, rfl, rfl, rfl⟩

theorem hz : (![0, 0] : Fin 2 → Nat) = fun _ => 0 := funext fun a => by fin_cases a <;> rfl

/-- A row tile through the layer, at row `p` and column `q` of the tile. -/
def tileCell (X : Vec Ideal S10000x128 .f32) (Wt : Vec Ideal S128x128 .bf16) (B : Vec Ideal S1x128 .f32)
    (p : Fin 10000) (q : Fin 128) : EReal :=
  max ((∑ k : Fin 128, X (ix2 p k) * Wt (ix2 k q)) + B (ix2 (0 : Fin 1) q)) z

/-- The value stored into the lower half, read at an index. -/
theorem payLo_apply (X : Vec Ideal S10000x128 .f32) (Wt : Vec Ideal S128x128 .bf16) (B : Vec Ideal S1x128 .f32)
    (p : Fin 10000) (q : Fin 128) : k0_pay3 (F := Ideal) Wt B X (ix2 p q) = tileCell X Wt B p q := by
  unfold k0_pay3 k0_pay2 k0_pay1 tileCell
  rw [maximumf_apply, addf_apply, broadcast_apply, shapeCast_self, shapeCast_self, broadcastTo_1b_ab_apply]
  refine congrArg (fun s => max (s + B (ix2 (0 : Fin 1) q)) z) ?_
  refine (matmul_zero_apply (φ₁ := .bf16) (φ₂ := .bf16) plainK none (truncf .bf16 X bitsLt_bf16_f32) Wt p q).trans
    (Finset.sum_congr rfl fun k _ => ?_)
  rw [truncf_apply]

/-- The value stored into the upper half, read at an index: the same expression of the odd tile. -/
theorem payHi_apply (X : Vec Ideal S10000x128 .f32) (Wt : Vec Ideal S128x128 .bf16) (B : Vec Ideal S1x128 .f32)
    (p : Fin 10000) (q : Fin 128) : k0_pay4 (F := Ideal) Wt B X (ix2 p q) = tileCell X Wt B p q := by
  unfold k0_pay4 k0_pay2 k0_pay1 tileCell
  rw [maximumf_apply, addf_apply, broadcast_apply, shapeCast_self, shapeCast_self, broadcastTo_1b_ab_apply]
  refine congrArg (fun s => max (s + B (ix2 (0 : Fin 1) q)) z) ?_
  refine (matmul_zero_apply (φ₁ := .bf16) (φ₂ := .bf16) plainK none (truncf .bf16 X bitsLt_bf16_f32) Wt p q).trans
    (Finset.sum_congr rfl fun k _ => ?_)
  rw [truncf_apply]

/-- Row `p` of the lower half is row `p` of the buffer. -/
theorem rLo_emb (p : Fin 10000) (q : Fin 128) :
    rLo.emb (ix2 p q) = ix2 (⟨p.val, by have := p.isLt; omega⟩ : Fin 20000) q := by
  funext a; apply Fin.ext
  match a with
  | ⟨0, _⟩ => show 0 + 1 * p.val = p.val; omega
  | ⟨1, _⟩ => show 0 + 1 * q.val = q.val; omega

/-- Row `p` of the upper half is row `10000 + p` of the buffer. -/
theorem rHi_emb (p : Fin 10000) (q : Fin 128) :
    rHi.emb (ix2 p q) = ix2 (⟨10000 + p.val, by have := p.isLt; omega⟩ : Fin 20000) q := by
  funext a; apply Fin.ext
  match a with
  | ⟨0, _⟩ => show 10000 + 1 * p.val = 10000 + p.val; omega
  | ⟨1, _⟩ => show 0 + 1 * q.val = q.val; omega

/-- The buffer's lower half after the body: the even tile's image. -/
theorem outBuf_lo (X0 X1 : Vec Ideal S10000x128 .f32) (Wt : Vec Ideal S128x128 .bf16) (B : Vec Ideal S1x128 .f32)
    (p : Fin 10000) (q : Fin 128) :
    outBuf X0 X1 Wt B (ix2 (⟨p.val, by have := p.isLt; omega⟩ : Fin 20000) q) = tileCell X0 Wt B p q := by
  unfold outBuf
  rw [View.canon_cons_of_not_mem _ _ (by
    rw [Rect.mem_set_unit]
    intro h
    have h0 := h 0
    change 10000 ≤ p.val ∧ p.val < 10000 + 10000 at h0
    have := p.isLt; omega)]
  rw [← rLo_emb, View.canon_cons_emb, View.ld_unit_zero (S := S128x128) hz, View.ld_unit_zero (S := S1x128) hz,
    View.ld_unit_zero (S := S10000x128) hz]
  exact payLo_apply X0 Wt B p q

/-- The buffer's upper half after the body: the odd tile's image. -/
theorem outBuf_hi (X0 X1 : Vec Ideal S10000x128 .f32) (Wt : Vec Ideal S128x128 .bf16) (B : Vec Ideal S1x128 .f32)
    (p : Fin 10000) (q : Fin 128) :
    outBuf X0 X1 Wt B (ix2 (⟨10000 + p.val, by have := p.isLt; omega⟩ : Fin 20000) q) = tileCell X1 Wt B p q := by
  unfold outBuf
  rw [← rHi_emb, View.canon_cons_emb, View.ld_unit_zero (S := S128x128) hz, View.ld_unit_zero (S := S1x128) hz,
    View.ld_unit_zero (S := S10000x128) hz]
  exact payHi_apply X1 Wt B p q

end Cert.KernelIdeal.Region

end
-- ==== Proof.DenseSpec.lean ====
/-
  The result both programs compute, as one function of the three argument arrays.

  With x the [100000, 128] activation matrix, W the [128, 128] weight matrix (one row per output feature) and b
  the length-128 bias, the entry at row r and column c is

      max (Σ_k x[r, k] · W[c, k] + b[c], 0)

  on the extended reals: the product of x with the transpose of W, the bias added to every row, clipped at zero.
  The zero is kept as the value of the all-zero word, which both programs spell the same way.
-/
import proofs.«135595_g70342974374496_cont_9to1c4b_293_24_alg».proof.Proof.LibDense

noncomputable section

namespace Cert.Spec

open Idealize.ShloMosaic Idealize.ShloMosaic.ValueIdx Cert.Dense

/-- The entry at row `r`, column `c`. -/
def cell (x : FVec Ideal ⟨2, ![100000, 128]⟩ .f32) (W : FVec Ideal ⟨2, ![128, 128]⟩ .f32) (b : FVec Ideal ⟨1, ![128]⟩ .f32)
    (r : Fin 100000) (c : Fin 128) : EReal :=
  max ((∑ k : Fin 128, x (ix2 r k) * W (ix2 c k)) + b (ix1 c)) z

/-- The whole result array. -/
def layer (x : FVec Ideal ⟨2, ![100000, 128]⟩ .f32) (W : FVec Ideal ⟨2, ![128, 128]⟩ .f32) (b : FVec Ideal ⟨1, ![128]⟩ .f32) :
    FVec Ideal ⟨2, ![100000, 128]⟩ .f32 :=
  fun i => cell x W b ⟨(i 0).val, (i 0).isLt⟩ ⟨(i 1).val, (i 1).isLt⟩

theorem layer_ix2 (x : FVec Ideal ⟨2, ![100000, 128]⟩ .f32) (W : FVec Ideal ⟨2, ![128, 128]⟩ .f32) (b : FVec Ideal ⟨1, ![128]⟩ .f32)
    (r : Fin 100000) (c : Fin 128) : layer x W b (ix2 r c) = cell x W b r c := rfl

end Cert.Spec

end
-- ==== Proof.IdealValue.lean ====
/-
  The idealized kernel's result array is the specification. At grid point t the even-tile window holds rows
  20000·t to 20000·t + 9999 of the activation matrix and the odd-tile window the next 10000 rows; the weight
  window holds the transpose of W and the bias window b as one row; the output window's block is rows 20000·t to
  20000·t + 19999 of the result. So what point t writes back is exactly that block of the specification, the five
  points' blocks tile the result, and the result array ends equal to the specification.
-/
import proofs.«135595_g70342974374496_cont_9to1c4b_293_24_alg».proof.Proof.IdealRun
import proofs.«135595_g70342974374496_cont_9to1c4b_293_24_alg».proof.Proof.IdealTile
import proofs.«135595_g70342974374496_cont_9to1c4b_293_24_alg».proof.Proof.DenseSpec
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe Idealize.SL.Sem Idealize.ShloMosaic.StableHlo
open Idealize.ShloMosaic.ValueIdx Cert.RowOps Cert.Dense
open Idealize.ShloMosaic.Pipeline (Dat)

/-! ## One point's buffer is one block of the specification -/

/-- If the two tiles are rows 20000·n … and 20000·n + 10000 … of x, the weight block is W transposed and the bias
    block is b as a row, the output buffer after the body is rows 20000·n … 20000·n + 19999 of the specification. -/
theorem outBuf_eq_layer (x : FVec Ideal S100000x128 .f32) (W : FVec Ideal S128x128 .f32) (b : FVec Ideal S128 .f32)
    (X0 X1 : Vec Ideal S10000x128 .f32) (Wt : Vec Ideal S128x128 .bf16) (B : Vec Ideal S1x128 .f32) (n : Nat) (hn : n < 5)
    (h0 : ∀ (p : Fin 10000) (k : Fin 128), X0 (ix2 p k) = x (ix2 (⟨2 * n * 10000 + p.val, by omega⟩ : Fin 100000) k))
    (h1 : ∀ (p : Fin 10000) (k : Fin 128), X1 (ix2 p k) = x (ix2 (⟨(2 * n + 1) * 10000 + p.val, by omega⟩ : Fin 100000) k))
    (hW : ∀ (k q : Fin 128), Wt (ix2 k q) = W (ix2 q k))
    (hB : ∀ q : Fin 128, B (ix2 (0 : Fin 1) q) = b (ix1 q))
    (p : Fin 20000) (q : Fin 128) :
    outBuf X0 X1 Wt B (ix2 p q) = Cert.Spec.layer x W b (ix2 (⟨n * 20000 + p.val, by omega⟩ : Fin 100000) q) := by
  rw [Cert.Spec.layer_ix2]; unfold Cert.Spec.cell
  by_cases hp : p.val < 10000
  · have e : ix2 p q = ix2 (⟨(⟨p.val, hp⟩ : Fin 10000).val, by omega⟩ : Fin 20000) q := rfl
    rw [e, outBuf_lo]; unfold tileCell
    rw [hB]
    refine congrArg (fun s => max (s + b (ix1 q)) z) (Finset.sum_congr rfl fun k _ => ?_)
    rw [h0, hW]
    have er : (⟨2 * n * 10000 + (⟨p.val, hp⟩ : Fin 10000).val, by omega⟩ : Fin 100000) = ⟨n * 20000 + p.val, by omega⟩ :=
      Fin.ext (by show 2 * n * 10000 + p.val = n * 20000 + p.val; omega)
    rw [er]
  · have hp' : p.val - 10000 < 10000 := by omega
    have e : ix2 p q = ix2 (⟨10000 + (⟨p.val - 10000, hp'⟩ : Fin 10000).val, by omega⟩ : Fin 20000) q := by
      refine congrArg (fun r => ix2 r q) (Fin.ext ?_)
      show p.val = 10000 + (p.val - 10000); omega
    rw [e, outBuf_hi]; unfold tileCell
    rw [hB]
    refine congrArg (fun s => max (s + b (ix1 q)) z) (Finset.sum_congr rfl fun k _ => ?_)
    rw [h1, hW]
    have er : (⟨(2 * n + 1) * 10000 + (⟨p.val - 10000, hp'⟩ : Fin 10000).val, by omega⟩ : Fin 100000) = ⟨n * 20000 + p.val, by omega⟩ :=
      Fin.ext (by show (2 * n + 1) * 10000 + (p.val - 10000) = n * 20000 + p.val; omega)
    rw [er]

variable (m : (ℓ : Loc nD τ sig) → Buf (Elt Ideal) ℓ) (ρ : Dev nD → PrngReg)

/-! ## What the host operations before the region leave -/

/-- The weight window's array is W transposed (the change of format is the identity on extended reals). -/
theorem V_wt (c : Dev nD) (k q : Fin 128) :
    (V m c main_v1 : S128x128.Idx → EReal) (ix2 k q) = m ((c : Thread nD τ).loc main_arg1) (ix2 q k) := by
  have e : V m c main_v1
      = (truncf (F := Ideal) .bf16 (transpose S128x128 [1, 0] (m ((c : Thread nD τ).loc main_arg1)) transposes_S128x128_S128x128_1_0)
          bitsLt_bf16_f32 : FVec Ideal S128x128 .bf16) := by
    dsimp only [V, hostOps0]; after_results
  rw [e, truncf_apply, swap_apply]

/-- The bias window's array is b as one row. -/
theorem V_bias (c : Dev nD) (q : Fin 128) :
    (V m c main_v2 : S1x128.Idx → EReal) (ix2 (0 : Fin 1) q) = m ((c : Thread nD τ).loc main_arg2) (ix1 q) := by
  have e : V m c main_v2
      = (shapeCast S1x128 (m ((c : Thread nD τ).loc main_arg2)) shapeCasts_S128_S1x128 : FVec Ideal S1x128 .f32) := by
    dsimp only [V, hostOps0]; after_results; rfl
  rw [e]
  exact shapeCast_apply _ shapeCasts_S128_S1x128 _ _ (by
    rw [Shape.rowMajor_val_one, Shape.rowMajor_val_two]
    show q.val = 0 * 128 + q.val
    omega)

/-! ## The index maps over the grid -/

/-- At point t: the even tile is block 2t of the activation matrix, the odd tile block 2t + 1; the weights and the
    bias are their arrays' only block; the output is block t of the result. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## What a point writes back -/

/-- Point t writes back block t of the specification of the argument arrays. -/
theorem flushed4_eq (c : Dev nD) (t : Fin cfg0.N) :
    (dats m 0 c).flushed 4 t = ((cfg0.win 4).blk t).view.read (Elt Ideal)
      (Cert.Spec.layer (m ((c : Thread nD τ).loc main_arg0)) (m ((c : Thread nD τ).loc main_arg1)) (m ((c : Thread nD τ).loc main_arg2))) := by
  show (cfg0.win 4).cut (grid0.coords t) ((dats m 0 c).after 4 t) = _
  rw [after4]
  obtain ⟨e00, e01, e10, e11, e20, e21, e30, e31, e40, e41⟩ := idx_facts t
  have ht : t.val < 5 := lt_of_lt_of_eq t.isLt N_0
  have h0 : ∀ (p : Fin 10000) (k : Fin 128), iblk m c 0 t (ix2 p k)
      = m ((c : Thread nD τ).loc main_arg0) (ix2 (⟨2 * t.val * 10000 + p.val, by omega⟩ : Fin 100000) k) := fun p k => by
    show V m c main_arg0 (((cfg0.win 0).blk t).view.emb (ix2 p k)) = _
    rw [V_main_arg0]
    refine congrArg _ (funext fun a => Fin.ext ?_)
    match a with
    | ⟨0, _⟩ => show win0_0.index t (0 : Fin 2) * 10000 + 1 * p.val = 2 * t.val * 10000 + p.val; rw [e00]; omega
    | ⟨1, _⟩ => show win0_0.index t (1 : Fin 2) * 128 + 1 * k.val = k.val; rw [e01]; omega
  have h1 : ∀ (p : Fin 10000) (k : Fin 128), iblk m c 1 t (ix2 p k)
      = m ((c : Thread nD τ).loc main_arg0) (ix2 (⟨(2 * t.val + 1) * 10000 + p.val, by omega⟩ : Fin 100000) k) := fun p k => by
    show V m c main_arg0 (((cfg0.win 1).blk t).view.emb (ix2 p k)) = _
    rw [V_main_arg0]
    refine congrArg _ (funext fun a => Fin.ext ?_)
    match a with
    | ⟨0, _⟩ => show win0_1.index t (0 : Fin 2) * 10000 + 1 * p.val = (2 * t.val + 1) * 10000 + p.val; rw [e10]; omega
    | ⟨1, _⟩ => show win0_1.index t (1 : Fin 2) * 128 + 1 * k.val = k.val; rw [e11]; omega
  have hW : ∀ (k q : Fin 128), iblk m c 2 t (ix2 k q) = m ((c : Thread nD τ).loc main_arg1) (ix2 q k) := fun k q => by
    show V m c main_v1 (((cfg0.win 2).blk t).view.emb (ix2 k q)) = _
    have he : ((cfg0.win 2).blk t).view.emb (ix2 k q) = ix2 k q := funext fun a => Fin.ext (by
      match a with
      | ⟨0, _⟩ => show win0_2.index t (0 : Fin 2) * 128 + 1 * k.val = k.val; rw [e20]; omega
      | ⟨1, _⟩ => show win0_2.index t (1 : Fin 2) * 128 + 1 * q.val = q.val; rw [e21]; omega)
    rw [he]
    exact V_wt m c k q
  have hB : ∀ q : Fin 128, iblk m c 3 t (ix2 (0 : Fin 1) q) = m ((c : Thread nD τ).loc main_arg2) (ix1 q) := fun q => by
    show V m c main_v2 (((cfg0.win 3).blk t).view.emb (ix2 (0 : Fin 1) q)) = _
    have he : ((cfg0.win 3).blk t).view.emb (ix2 (0 : Fin 1) q) = ix2 (0 : Fin 1) q := funext fun a => Fin.ext (by
      match a with
      | ⟨0, _⟩ => show win0_3.index t (0 : Fin 2) * 1 + 1 * 0 = 0; rw [e30]
      | ⟨1, _⟩ => show win0_3.index t (1 : Fin 2) * 128 + 1 * q.val = q.val; rw [e31]; omega)
    rw [he]
    exact V_bias m c q
  funext (j : S20000x128.Idx)
  have hj0 : (j 0).val < 20000 := (j 0).isLt
  show outBuf (iblk m c 0 t) (iblk m c 1 t) (iblk m c 2 t) (iblk m c 3 t) j
    = Cert.Spec.layer _ _ _ (((cfg0.win 4).blk t).view.emb j)
  have hemb : ((cfg0.win 4).blk t).view.emb j = ix2 (⟨t.val * 20000 + (j 0).val, by omega⟩ : Fin 100000) (j 1) :=
    funext fun a => Fin.ext (by
      match a with
      | ⟨0, _⟩ => show win0_4.index t (0 : Fin 2) * 20000 + 1 * (j 0).val = t.val * 20000 + (j 0).val; rw [e40]; omega
      | ⟨1, _⟩ => show win0_4.index t (1 : Fin 2) * 128 + 1 * (j 1).val = (j 1).val; rw [e41]; omega)
  rw [hemb]
  exact (congrArg (outBuf (iblk m c 0 t) (iblk m c 1 t) (iblk m c 2 t) (iblk m c 3 t)) (eq_ix2 j)).trans
    (outBuf_eq_layer _ _ _ _ _ _ _ t.val ht h0 h1 hW hB (j 0) (j 1))

/-! ## The five blocks tile the result -/

theorem mem_blk4 (t : Fin cfg0.N) (i : S100000x128.Idx) :
    i ∈ ((cfg0.win 4).blk t).view.set ↔ ∀ a : Fin 2, win0_4.index t a * S20000x128.size a ≤ (i a).val
      ∧ (i a).val < win0_4.index t a * S20000x128.size a + S20000x128.size a := by
  show i ∈ ((View.whole main_v3).slice (win0_4.rect t)).set ↔ _
  rw [View.set_slice_whole, Rect.mem_set_unit]
  exact Iff.rfl

/-- Row r of the result lies in the block of point r / 20000. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 5 := N_0
  obtain ⟨t, htv⟩ : ∃ t : Fin cfg0.N, t.val = (i 0).val / 20000 := ⟨⟨(i 0).val / 20000, by rw [hN]; omega⟩, rfl⟩
  obtain ⟨-, -, -, -, -, -, -, -, e40, e41⟩ := idx_facts t
  refine ⟨t, flush0_4 t, ?_⟩
  rw [mem_blk4]
  intro a
  match a with
  | ⟨0, _⟩ =>
    show win0_4.index t (0 : Fin 2) * 20000 ≤ (i 0).val ∧ (i 0).val < win0_4.index t (0 : Fin 2) * 20000 + 20000
    rw [e40, htv]; omega
  | ⟨1, _⟩ =>
    show win0_4.index t (1 : Fin 2) * 128 ≤ (i 1).val ∧ (i 1).val < win0_4.index t (1 : Fin 2) * 128 + 128
    rw [e41]; omega

/-! ## The result array, and the run -/

/-- After the last point the result array is the specification of the argument arrays. -/
theorem final4 (c : Dev nD) : (dats m 0 c).arrAt 4 cfg0.N
    = Cert.Spec.layer (m ((c : Thread nD τ).loc main_arg0)) (m ((c : Thread nD τ).loc main_arg1)) (m ((c : Thread nD τ).loc main_arg2)) :=
  (dats m 0 c).arrAt_eq_of_cover 4 _ (fun t _ => flushed4_eq m c t) cover4

/-- Every weakly fair execution of the idealized kernel terminates without fault, its result the specification of
    the argument arrays, which end unchanged. -/
theorem run : θ_run defs (onTc (τ := τ) (main (F := Ideal))) ⟨m, fun _ => 0, ρ⟩ fun r => ∀ c : Dev nD,
      r.2.mem ((c.tc : Thread nD τ).loc main_v3)
        = Cert.Spec.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 4).trans (final4 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Region

end
-- ==== Proof.RefIsSpec.lean ====
/-
  The reference computes the specification. Its @main transposes W, takes the matrix product of x with the
  transpose, broadcasts b over the rows, adds, and takes the maximum with a broadcast zero: at row r and column c
  that is max (Σ_k x[r, k] · Wᵀ[k, c] + b[c], 0), and Wᵀ[k, c] is W[c, k].
-/
import proofs.«135595_g70342974374496_cont_9to1c4b_293_24_alg».proof.Proof.Gen.ReferenceIdeal.Run
import proofs.«135595_g70342974374496_cont_9to1c4b_293_24_alg».proof.Proof.DenseSpec

noncomputable section

namespace Cert.ReferenceIdeal.RefValue

open Cert.ReferenceIdeal Cert.ReferenceIdeal.Gen
open Idealize.ShloMosaic Idealize.ShloMosaic.ValueIdx Cert.RowOps Cert.Dense

/-- The reference's product contracts the second axis of x with the first axis of the transposed weights. -/
theorem plain : IsPlain dot_S100000x128_S128x128_S100000x128_1_0_0_1_n_n := ⟨rfl, rfl, rfl, rfl, rfl, rfl⟩

/-- The reference's result term is the specification, entry by entry. -/
theorem result_eq (x : FVec Ideal S100000x128 .f32) (W : FVec Ideal S128x128 .f32) (b : FVec Ideal S128 .f32) :
    maximumf (addf (Host.dotGeneral dot_S100000x128_S128x128_S100000x128_1_0_0_1_n_n none x (transpose S128x128 [1, 0] W transposes_S128x128_S128x128_1_0))
        (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.Spec.layer x W b := by
  funext i
  obtain ⟨r, c, rfl⟩ : ∃ (r : Fin 100000) (c : Fin 128), i = ix2 r c := ⟨i 0, i 1, eq_ix2 i⟩
  rw [Cert.Spec.layer_ix2]
  refine (hostEncode_apply plain x _ b _ _ _ r c).trans ?_
  unfold Cert.Spec.cell
  refine congrArg (fun s => max (s + b (ix1 c)) z) (Finset.sum_congr rfl fun k _ => ?_)
  rw [swap_apply]

end Cert.ReferenceIdeal.RefValue

end
-- ==== Proof.lean ====
/-
  A dense layer with a rectifier, out = max (x · Wᵀ + b, 0), for x of 100000 rows and 128 columns, W a 128 × 128
  weight matrix and b a bias of length 128: a tiled kernel against the plain array expression.

  The kernel walks five grid points. At each it holds two consecutive row tiles of x, of 10000 rows each, handed
  to it through two windows on the ONE array x, together with the transposed weights and the bias as a row, and
  it writes the 20000 result rows of the two tiles. On the extended reals the change of float format before the
  product is the identity and a matrix product into a zero accumulator is the plain sum over the shared axis, so
  each entry the kernel stores is max (Σ_k x[r, k] · W[c, k] + b[c], 0), which is also the reference's entry: the
  two programs compute one function, with no use of the inputs' finiteness (only a finite sum is regrouped).

  The three frames: the reference is host operations only; each kernel program runs its region with the array x
  shared between the two tile windows, its ownership dealt to them in halves, and no argument array is written.
  The idealization rewrote nothing, so there is nothing to preserve.
-/
import proofs.«135595_g70342974374496_cont_9to1c4b_293_24_alg».proof.Defs
import proofs.«135595_g70342974374496_cont_9to1c4b_293_24_alg».proof.Proof.Gen.Pre_finite_inputs
import proofs.«135595_g70342974374496_cont_9to1c4b_293_24_alg».proof.Proof.BitsRun
import proofs.«135595_g70342974374496_cont_9to1c4b_293_24_alg».proof.Proof.IdealValue
import proofs.«135595_g70342974374496_cont_9to1c4b_293_24_alg».proof.Proof.RefIsSpec

noncomputable section

namespace Cert.Proof

open Idealize.ShloMosaic Idealize.ShloMosaic.TcCoe Idealize.SL.Sem

/-- The word-level kernel terminates without fault and leaves its arguments unchanged. -/
theorem frame_kernel : Cert.frame_Kernel := fun m ρ _ => Cert.Kernel.Region.frame m ρ

/-- So does the idealized kernel. -/
theorem frame_kernelIdeal : Cert.frame_KernelIdeal := fun m ρ _ => Cert.KernelIdeal.Region.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories that agree on x, W and b, both programs end with the result array at
    max (Σ_k x[r, k] · W[c, k] + b[c], 0), entry by entry. -/
theorem algebraic : Cert.algebraic_KernelIdeal_ReferenceIdeal := by
  intro m ρ m' ρ' _ hagree
  refine ⟨_, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
